-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S32x2048x128 : Shape := ⟨3, ![32, 2048, 128]⟩
abbrev S1x1024x128 : Shape := ⟨3, ![1, 1024, 128]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1024x1, .f32⟩
  | .local _ .vmem, ⟨9, _⟩ => ⟨S1024x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 2], ![false, false, false]⟩

def k0_cond2 (i : grid0.Coords) : BitVec 1 :=
  let arg2 : BitVec 32 := BitVec.ofNat 32 (i 2).val
  let c1_i32 : BitVec 32 := 1#32
  let v34 : BitVec 1 := Scalar.cmpi .eq arg2 c1_i32
  let v35 : BitVec 32 := Scalar.extui v34
  let c0_i32_19 : BitVec 32 := 0#32
  let v36 : BitVec 1 := Scalar.cmpi .ne v35 c0_i32_19
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x16x2048x128_S32x2048x128 : S2x16x2048x128.ShapeCasts S32x2048x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  shapeCasts_S1024x128_S1x1024x128 : S1024x128.ShapeCasts S1x1024x128
  shapeCasts_S32x2048x128_S2x16x2048x128 : S32x2048x128.ShapeCasts S2x16x2048x128
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x2048x128.size a
  hwx0_1 : ∀ i : grid0.Coords, EltTy.bits .f32 = 32 ∨ (Rect.block (s := S32x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x2048x128.size a
  hwx0_2 : ∀ i : grid0.Coords, EltTy.bits .f32 = 32 ∨ (Rect.block (s := S32x2048x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 11
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S_, .f32⟩
  | .hbm, ⟨5, _⟩ => ⟨S2x16x2048, .f32⟩
  | .hbm, ⟨6, _⟩ => ⟨S2x16x2048x1, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Pieces.lean ====
/-
  What one visit of the body leaves behind, as the body's arithmetic of what it found.

  At a first visit (the key axis starts) the body first stores -∞ into the running maxima and zero into the
  accumulator and then does the step on those; so it leaves the step's results from (-∞, 0). At a last visit it does
  the step on what the visit before left and copies the new accumulator into the output block. Every store and load
  covers its whole buffer, so a load reads the last store's payload.
-/
import proofs.«117285_j38517266710795_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First visit: the running maxima left are the step's from -∞. -/
theorem soutA0_eq (c : Dev nD) (i : grid0.Coords) (a3 : Memref sig .tc .vmem S1x1024x128 .f32) (h3 : a3.IsWhole) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1024x1 .f32) (h7 : a7.IsWhole) (a8 : Memref sig .tc .vmem S1024x128 .f32) (h8 : a8.IsWhole) (hc0 : cond0_0 i) (hc1 : ¬cond0_1 i)
    (x0 x1 x2 : Vec F S1x1024x128 .f32) :
    sout0_A_0 c i a3 h3 a4 h4 a5 h5 a6 h6 a7 h7 a8 h8 hc0 hc1 x0 x1 x2 = k0_pay1 (k0_pay6 x0 x1 k0_pay3) := by
  unfold sout0_A_0
  rw [View.read_writes_eq_canon _ _ _ (scover0_A_0 c i a3 h3 a4 h4 a5 h5 a6 h6 a7 h7 a8 h8 hc0 hc1 x0 x1 x2)]
  unfold kernelRun0_A
  dsimp only
  sl_unfold_words
  rw [View.canon_cons_unit_zero (S := S1024x1) hz2, View.readCov_unit_zero (S := S1024x1) _ hz2]
  simp only [View.readAt_eq_ld, h3.read_unread, h4.read_unread, View.ld_unit_zero (S := S1x1024x128) hz3]

/-- First visit: the accumulator left is the step's from -∞ and zero. -/
theorem soutA1_eq (c : Dev nD) (i : grid0.Coords) (a3 : Memref sig .tc .vmem S1x1024x128 .f32) (h3 : a3.IsWhole) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1024x1 .f32) (h7 : a7.IsWhole) (a8 : Memref sig .tc .vmem S1024x128 .f32) (h8 : a8.IsWhole) (hc0 : cond0_0 i) (hc1 : ¬cond0_1 i)
    (x0 x1 x2 : Vec F S1x1024x128 .f32) :
    sout0_A_1 c i a3 h3 a4 h4 a5 h5 a6 h6 a7 h7 a8 h8 hc0 hc1 x0 x1 x2 = k0_pay7 x0 x1 k0_pay3 x2 k0_pay4 := by
  unfold sout0_A_1
  rw [View.read_writes_eq_canon _ _ _ (scover0_A_1 c i a3 h3 a4 h4 a5 h5 a6 h6 a7 h7 a8 h8 hc0 hc1 x0 x1 x2)]
  unfold kernelRun0_A
  dsimp only
  sl_unfold_words
  rw [View.canon_cons_unit_zero (S := S1024x128) hz2, View.readCov_unit_zero (S := S1024x1) _ hz2,
    View.readCov_unit_zero (S := S1024x128) _ hz2]
  simp only [View.readAt_eq_ld, h3.read_unread, h4.read_unread, h5.read_unread, View.ld_unit_zero (S := S1x1024x128) hz3]

/-- Last visit: the output block is the step's accumulator from what the visit before left. -/
theorem outB3_eq (c : Dev nD) (i : grid0.Coords) (a3 : Memref sig .tc .vmem S1x1024x128 .f32) (h3 : a3.IsWhole) (a4 : Memref sig .tc .vmem S1x1024x128 .f32) (h4 : a4.IsWhole) (a5 : Memref sig .tc .vmem S1x1024x128 .f32) (h5 : a5.IsWhole) (a6 : Memref sig .tc .vmem S1x1024x128 .f32) (h6 : a6.IsWhole) (a7 : Memref sig .tc .vmem S1024x1 .f32) (h7 : a7.IsWhole) (a8 : Memref sig .tc .vmem S1024x128 .f32) (h8 : a8.IsWhole) (hc0 : ¬cond0_0 i) (hc1 : cond0_1 i)
    (x0 x1 x2 : Vec F S1x1024x128 .f32) (xs0 : Vec F S1024x1 .f32) (xs1 : Vec F S1024x128 .f32) :
    out0_B_3 c i a3 h3 a4 h4 a5 h5 a6 h6 a7 h7 a8 h8 hc0 hc1 x0 x1 x2 xs0 xs1 = k0_pay2 (k0_pay7 x0 x1 xs0 x2 xs1) := by
  unfold out0_B_3
  rw [View.read_writes_eq_canon _ _ _ (cover0_B_3 c i a3 h3 a4 h4 a5 h5 a6 h6 a7 h7 a8 h8 hc0 hc1 x0 x1 x2 xs0 xs1)]
  unfold kernelRun0_B
  dsimp only
  sl_unfold_words
  rw [View.canon_unit_zero (S := S1x1024x128) hz3, View.readCov_unit_zero (S := S1024x128) _ hz2]
  simp only [View.readAt_eq_ld, h3.read_unread, h4.read_unread, h5.read_unread, h7.read_unread, h8.read_unread,
    View.ld_unit_zero (S := S1x1024x128) hz3, View.ld_unit_zero (S := S1024x1) hz2, View.ld_unit_zero (S := S1024x128) hz2]

end Cert.KernelIdeal.Pieces

end
-- ==== Proof.Blocks.lean ====
/-
  Where the blocks of the three inputs sit in the argument arrays.

  The program first views each [2, 16, 2048, 128] argument as [32, 2048, 128] (head g = 16·b + h). Grid point n
  stands for head g = n / 4, query block (n / 2) mod 2 and key block n mod 2; a block is 1024 consecutive
  positions of one head. So entry (0, r, e) of the query block at point n is position ((n / 2) mod 2)·1024 + r of
  head n / 4, and entry (0, c, e) of the key or value block is position (n mod 2)·1024 + c of that head.
-/
import proofs.«117285_j38517266710795_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The head of grid point `n`. -/
def gOf (n : ℕ) : Fin 32 := ⟨n / 4 % 32, Nat.mod_lt _ (by decide)⟩
/-- The batch entry of head `g`. -/
def bOf (g : Fin 32) : Fin 2 := ⟨g.val / 16, by have := g.isLt; omega⟩
/-- The head within the batch entry of head `g`. -/
def hOf (g : Fin 32) : Fin 16 := ⟨g.val % 16, Nat.mod_lt _ (by decide)⟩
/-- Row `r` of the query block of grid point `n`, as a position. -/
def qrow (n : ℕ) (r : Fin 1024) : Fin 2048 :=
  ⟨n / 2 % 2 * 1024 + r.val, by have := r.isLt; have := Nat.mod_lt (n / 2) (by decide : 0 < 2); omega⟩
/-- Row `c` of the key and value blocks of grid point `n`, as a position. -/
def krow (n : ℕ) (c : Fin 1024) : Fin 2048 :=
  ⟨n % 2 * 1024 + c.val, by have := c.isLt; have := Nat.mod_lt n (by decide : 0 < 2); omega⟩

/-- The printed index maps, over the grid. -/
theorem idx_facts : ∀ t : Fin cfg0.N,
    win0_0.index t (0 : Fin 3) = t.val / 4 ∧ win0_0.index t (1 : Fin 3) = t.val / 2 % 2 ∧ win0_0.index t (2 : Fin 3) = 0
    ∧ win0_1.index t (0 : Fin 3) = t.val / 4 ∧ win0_1.index t (1 : Fin 3) = t.val % 2 ∧ win0_1.index t (2 : Fin 3) = 0
    ∧ win0_2.index t (0 : Fin 3) = t.val / 4 ∧ win0_2.index t (1 : Fin 3) = t.val % 2 ∧ win0_2.index t (2 : Fin 3) = 0
    ∧ win0_3.index t (0 : Fin 3) = t.val / 4 ∧ win0_3.index t (1 : Fin 3) = t.val / 2 % 2 ∧ win0_3.index t (2 : Fin 3) = 0 :=
  (by decide +kernel : ∀ t : Fin grid0.N, _)

/-- The three arrays the region reads are the arguments viewed as [32, 2048, 128]. -/
theorem V_v0 (c : Dev nD) : V m c main_v0
    = shapeCast S32x2048x128 (m ((c : Thread nD τ).loc main_arg0)) shapeCasts_S2x16x2048x128_S32x2048x128 := by
  show StableHlo.after hostOps0 (fun b => m (c, b)) (Proc.devRef .tc main_v0) = _
  after_results
  rfl
theorem V_v1 (c : Dev nD) : V m c main_v1
    = shapeCast S32x2048x128 (m ((c : Thread nD τ).loc main_arg1)) shapeCasts_S2x16x2048x128_S32x2048x128 := by
  show StableHlo.after hostOps0 (fun b => m (c, b)) (Proc.devRef .tc main_v1) = _
  after_results
  rfl
theorem V_v2 (c : Dev nD) : V m c main_v2
    = shapeCast S32x2048x128 (m ((c : Thread nD τ).loc main_arg2)) shapeCasts_S2x16x2048x128_S32x2048x128 := by
  show StableHlo.after hostOps0 (fun b => m (c, b)) (Proc.devRef .tc main_v2) = _
  after_results
  rfl

/-- Position (g, s, e) of the [32, 2048, 128] view is position (g / 16, g mod 16, s, e) of the argument. -/
theorem reshape_in_apply {α : Type} (x : S2x16x2048x128.Idx → α) (g : Fin 32) (s : Fin 2048) (e : Fin 128) :
    shapeCast S32x2048x128 x shapeCasts_S2x16x2048x128_S32x2048x128 (ix3 g s e) = x (ix4 (bOf g) (hOf g) s e) :=
  shapeCast_apply x _ _ _ (by
    rw [Shape.rowMajor_val_four, Shape.rowMajor_val_three]
    show ((g.val / 16 * 16 + g.val % 16) * 2048 + s.val) * 128 + e.val = (g.val * 2048 + s.val) * 128 + e.val
    rw [Nat.div_add_mod' g.val 16])

/-- Position (b, h, s, d) of the result is position (16·b + h, s, d) of the [32, 2048, 128] array the region wrote. -/
theorem reshape_out_apply {α : Type} (y : S32x2048x128.Idx → α) (b : Fin 2) (h : Fin 16) (s : Fin 2048) (d : Fin 128) :
    shapeCast S2x16x2048x128 y shapeCasts_S32x2048x128_S2x16x2048x128 (ix4 b h s d)
      = y (ix3 (⟨b.val * 16 + h.val, by have := b.isLt; have := h.isLt; omega⟩ : Fin 32) s d) :=
  shapeCast_apply y _ _ _ (by
    rw [Shape.rowMajor_val_four, Shape.rowMajor_val_three]
    rfl)

/-- An entry of the query block at point `t`. -/
theorem iblk0_apply (c : Dev nD) (t : Fin cfg0.N) (r : Fin 1024) (e : Fin 128) :
    (iblk m c 0 t : Vec F S1x1024x128 .f32) (ix3 (0 : Fin 1) r e)
      = m ((c : Thread nD τ).loc main_arg0) (ix4 (bOf (gOf t.val)) (hOf (gOf t.val)) (qrow t.val r) e) := by
  obtain ⟨e0, e1, e2, -⟩ := idx_facts t
  have hN : t.val < 128 := lt_of_lt_of_eq t.isLt N_0
  refine Eq.trans ?_ (reshape_in_apply (m ((c : Thread nD τ).loc main_arg0)) (gOf t.val) (qrow t.val r) e)
  rw [← V_v0 m c]
  unfold iblk
  rw [View.read_apply]
  show V m c main_v0 _ = V m c main_v0 _
  congr 1
  funext a
  apply Fin.ext
  match a with
  | ⟨0, _⟩ => show win0_0.index t (0 : Fin 3) * 1 + 1 * 0 = t.val / 4 % 32; rw [e0]; omega
  | ⟨1, _⟩ => show win0_0.index t (1 : Fin 3) * 1024 + 1 * r.val = t.val / 2 % 2 * 1024 + r.val; rw [e1]; omega
  | ⟨2, _⟩ => show win0_0.index t (2 : Fin 3) * 128 + 1 * e.val = e.val; rw [e2]; omega

/-- An entry of the key block at point `t`. -/
theorem iblk1_apply (c : Dev nD) (t : Fin cfg0.N) (k : Fin 1024) (e : Fin 128) :
    (iblk m c 1 t : Vec F S1x1024x128 .f32) (ix3 (0 : Fin 1) k e)
      = m ((c : Thread nD τ).loc main_arg1) (ix4 (bOf (gOf t.val)) (hOf (gOf t.val)) (krow t.val k) e) := by
  obtain ⟨-, -, -, e0, e1, e2, -⟩ := idx_facts t
  have hN : t.val < 128 := lt_of_lt_of_eq t.isLt N_0
  refine Eq.trans ?_ (reshape_in_apply (m ((c : Thread nD τ).loc main_arg1)) (gOf t.val) (krow t.val k) e)
  rw [← V_v1 m c]
  unfold iblk
  rw [View.read_apply]
  show V m c main_v1 _ = V m c main_v1 _
  congr 1
  funext a
  apply Fin.ext
  match a with
  | ⟨0, _⟩ => show win0_1.index t (0 : Fin 3) * 1 + 1 * 0 = t.val / 4 % 32; rw [e0]; omega
  | ⟨1, _⟩ => show win0_1.index t (1 : Fin 3) * 1024 + 1 * k.val = t.val % 2 * 1024 + k.val; rw [e1]; omega
  | ⟨2, _⟩ => show win0_1.index t (2 : Fin 3) * 128 + 1 * e.val = e.val; rw [e2]; omega

/-- An entry of the value block at point `t`. -/
theorem iblk2_apply (c : Dev nD) (t : Fin cfg0.N) (k : Fin 1024) (e : Fin 128) :
    (iblk m c 2 t : Vec F S1x1024x128 .f32) (ix3 (0 : Fin 1) k e)
      = m ((c : Thread nD τ).loc main_arg2) (ix4 (bOf (gOf t.val)) (hOf (gOf t.val)) (krow t.val k) e) := by
  obtain ⟨-, -, -, -, -, -, e0, e1, e2, -⟩ := idx_facts t
  have hN : t.val < 128 := lt_of_lt_of_eq t.isLt N_0
  refine Eq.trans ?_ (reshape_in_apply (m ((c : Thread nD τ).loc main_arg2)) (gOf t.val) (krow t.val k) e)
  rw [← V_v2 m c]
  unfold iblk
  rw [View.read_apply]
  show V m c main_v2 _ = V m c main_v2 _
  congr 1
  funext a
  apply Fin.ext
  match a with
  | ⟨0, _⟩ => show win0_2.index t (0 : Fin 3) * 1 + 1 * 0 = t.val / 4 % 32; rw [e0]; omega
  | ⟨1, _⟩ => show win0_2.index t (1 : Fin 3) * 1024 + 1 * k.val = t.val % 2 * 1024 + k.val; rw [e1]; omega
  | ⟨2, _⟩ => show win0_2.index t (2 : Fin 3) * 128 + 1 * e.val = e.val; rw [e2]; omega

end Cert.KernelIdeal.Blocks

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.Payload.lean ====
/-
  The body's arithmetic read at an index, on the extended reals.

  One visit of the body takes a block of 1024 queries, a block of 1024 keys and the matching block of values, the
  running row maxima m and the accumulator acc, and computes
    S[r,c]  = ∑ₑ q[r,e] · k[c,e]                       (scores of the block),
    m'[r]   = max (m[r]) (max over c of S[r,c], from -∞)   (the new running maximum),
    acc'[r,d] = exp (m[r] - m'[r]) · acc[r,d] + ∑_c exp (S[r,c] - m'[r]) · v[c,d].
  Changes of float format are the identity here, a matrix product into the zero accumulator is the plain sum of
  products, and a lane maximum is a fold of `max` from -∞ over the lane coordinate.
-/
import proofs.«117285_j38517266710795_1_alg».proof.Proof.Gen.KernelIdeal.Skeleton
import proofs.«117285_j38517266710795_1_alg».proof.Proof.LibLayout
import proofs.«117285_j38517266710795_1_alg».proof.Proof.LibMatmulSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The dimension numbers of the score product: both operands contracted along their feature axis. -/
abbrev Dqk : DotDims S1024x128 S1024x128 S1024x1024 := dot_S1024x128_S1024x128_S1024x1024_1_1_0_0_n_n
/-- The dimension numbers of the probabilities-by-values product: a plain matrix product. -/
abbrev Dpv : DotDims S1024x1024 S1024x128 S1024x128 := dot_S1024x1024_S1024x128_S1024x128_1_0_0_1_n_n

theorem qk_lhs0 (j : S1024x1024.Idx) (q : Dqk.contr.Idx) : (Dqk.lhsIdx j q 0).val = (j 0).val := by
  unfold DotDims.lhsIdx
  rw [dif_neg (show ¬(0 : Fin S1024x128.rank) ∈ Dqk.lhsBatch by decide),
    dif_pos (show (0 : Fin S1024x128.rank) ∈ Dqk.lhsNonContracting by decide)]
  rfl
theorem qk_lhs1 (j : S1024x1024.Idx) (q : Dqk.contr.Idx) : (Dqk.lhsIdx j q 1).val = (q ⟨0, by decide⟩).val :=
  Dqk.lhsIdx_val_of_single rfl j q
theorem qk_rhs0 (j : S1024x1024.Idx) (q : Dqk.contr.Idx) : (Dqk.rhsIdx j q 0).val = (j 1).val := by
  unfold DotDims.rhsIdx
  rw [dif_neg (show ¬(0 : Fin S1024x128.rank) ∈ Dqk.rhsBatch by decide),
    dif_pos (show (0 : Fin S1024x128.rank) ∈ Dqk.rhsNonContracting by decide)]
  rfl
theorem qk_rhs1 (j : S1024x1024.Idx) (q : Dqk.contr.Idx) : (Dqk.rhsIdx j q 1).val = (q ⟨0, by decide⟩).val :=
  Dqk.rhsIdx_val_of_single rfl j q

/-- The score of query row `r` against key row `c` of the blocks: the dot product over the 128 features. -/
theorem pay5_apply (x0 x1 : Vec Ideal S1x1024x128 .f32) (r c : Fin 1024) :
    k0_pay5 (F := Ideal) x0 x1 (ix2 r c) = ∑ e : Fin 128, x0 (ix3 (0 : Fin 1) r e) * x1 (ix3 (0 : Fin 1) c e) := by
  unfold k0_pay5
  refine (Ideal.matmul_constant_zero_apply Dqk none _ _ (ix2 r c)).trans ?_
  rw [← Equiv.sum_comp (contrEquiv1 Dqk 128 rfl rfl).symm]
  refine Finset.sum_congr rfl fun e _ => ?_
  have hk := contrEquiv1_symm_val Dqk 128 rfl rfl e
  have el : Dqk.lhsIdx (ix2 r c) ((contrEquiv1 Dqk 128 rfl rfl).symm e) = ix2 r e := funext fun a => Fin.ext (by
    match a with
    | ⟨0, _⟩ => exact qk_lhs0 _ _
    | ⟨1, _⟩ => exact (qk_lhs1 _ _).trans hk)
  have er : Dqk.rhsIdx (ix2 r c) ((contrEquiv1 Dqk 128 rfl rfl).symm e) = ix2 c e := funext fun a => Fin.ext (by
    match a with
    | ⟨0, _⟩ => exact qk_rhs0 _ _
    | ⟨1, _⟩ => exact (qk_rhs1 _ _).trans hk)
  rw [el, er]
  exact congrArg₂ (· * ·) (shapeCast_1ab_ab_apply x0 _ r e) (shapeCast_1ab_ab_apply x1 _ c e)

/-- The new running maximum of row `r`: the old one against the block's row maximum (from -∞). -/
theorem pay6_apply (x0 x1 : Vec Ideal S1x1024x128 .f32) (v10 : Vec Ideal S1024x1 .f32) (r : Fin 1024) :
    k0_pay6 (F := Ideal) x0 x1 v10 (ix2 r (0 : Fin 1))
      = max (v10 (ix2 r (0 : Fin 1))) ((Finset.univ : Finset (Fin 1024)).fold max (Ideal.ofBits FTy.f32 0xFF800000#32)
          (fun c => k0_pay5 (F := Ideal) x0 x1 (ix2 r c))) := by
  unfold k0_pay6
  refine congrArg (max (v10 (ix2 r (0 : Fin 1)))) ?_
  refine (Cert.LibLayout.shapeCast_a_a1_apply _ _ r).trans ?_
  refine (Ideal.multiReduction_maximumf_single (k0_pay5 (F := Ideal) x0 x1) 0xFF800000#32 reduces_S1024x1024_S1024 (.inl rfl) rfl (ix1 r)).trans ?_
  refine congrArg (fun f => (Finset.univ : Finset (Fin 1024)).fold max (Ideal.ofBits FTy.f32 0xFF800000#32) f) (funext fun c => ?_)
  exact congrArg (k0_pay5 (F := Ideal) x0 x1) (funext fun a => Fin.ext (by
    match a with
    | ⟨0, _⟩ => rfl
    | ⟨1, _⟩ => rfl))

/-- The new accumulator at row `r`, feature `d`: the old one rescaled, plus the block's weighted sum of values. -/
theorem pay7_apply (x0 x1 : Vec Ideal S1x1024x128 .f32) (v10 : Vec Ideal S1024x1 .f32) (x2 : Vec Ideal S1x1024x128 .f32)
    (v24 : Vec Ideal S1024x128 .f32) (r : Fin 1024) (d : Fin 128) :
    k0_pay7 (F := Ideal) x0 x1 v10 x2 v24 (ix2 r d)
      = Ideal.exp (v10 (ix2 r (0 : Fin 1)) - k0_pay6 (F := Ideal) x0 x1 v10 (ix2 r (0 : Fin 1))) * v24 (ix2 r d)
        + ∑ c : Fin 1024, Ideal.exp (k0_pay5 (F := Ideal) x0 x1 (ix2 r c) - k0_pay6 (F := Ideal) x0 x1 v10 (ix2 r (0 : Fin 1)))
            * x2 (ix3 (0 : Fin 1) c d) := by
  unfold k0_pay7
  rw [shapeCast_self]
  refine congrArg₂ (· + ·) (congrArg (· * v24 (ix2 r d)) ?_) ?_
  · exact Cert.LibLayout.broadcastTo_a1_ab_apply _ _ r d
  · refine (MatmulSum.matmul_zero_apply Dpv rfl rfl rfl rfl rfl rfl none _ _ (ix2 r d)).trans ?_
    refine Finset.sum_congr rfl fun c _ => ?_
    refine congrArg₂ (· * ·) ?_ (shapeCast_1ab_ab_apply x2 _ c d)
    exact congrArg (fun z => Ideal.exp (k0_pay5 (F := Ideal) x0 x1 (ix2 r c) - z))
      (Cert.LibLayout.broadcastTo_a1_ab_apply (k0_pay6 (F := Ideal) x0 x1 v10) _ r c)

/-- The initial running maximum is -∞ in every row. -/
theorem pay3_apply (j : S1024x1.Idx) : k0_pay3 (F := Ideal) j = Ideal.ofBits FTy.f32 0xFF800000#32 := by
  unfold k0_pay3
  rw [shapeCast_self]
  rfl

/-- The initial accumulator is zero everywhere. -/
theorem pay4_apply (j : S1024x128.Idx) : k0_pay4 (F := Ideal) j = Ideal.ofBits FTy.f32 0x00000000#32 := by
  unfold k0_pay4
  rw [shapeCast_self]
  rfl

/-- Storing the running maximum changes nothing. -/
theorem pay1_eq {F : FTy → Type} [FloatOps F] (v : FVec F S1024x1 .f32) : k0_pay1 v = v := by
  unfold k0_pay1
  exact shapeCast_self _ _

/-- The output block is the accumulator with a leading unit axis. -/
theorem pay2_apply {F : FTy → Type} [FloatOps F] (v : Vec F S1024x128 .f32) (r : Fin 1024) (d : Fin 128) :
    k0_pay2 v (ix3 (0 : Fin 1) r d) = v (ix2 r d) := by
  unfold k0_pay2
  exact shapeCast_ab_1ab_apply v _ (0 : Fin 1) r d

end Cert.KernelIdeal.Pay

end
-- ==== Proof.OnlineMax.lean ====
/-
  The algebra of a running maximum over two halves of a row.

  A row of 2048 real scores is visited in two halves of 1024. After the first half the running maximum is the
  maximum μ₀ of that half and the accumulator holds the sum of exp (aₜ - μ₀) · wₜ over it; after the second half the
  maximum is μ = max μ₀ μ₁, the old accumulator is rescaled by exp (μ₀ - μ) and the second half is added with
  exponent aₜ - μ. Because exp (μ₀ - μ) · exp (aₜ - μ₀) = exp (aₜ - μ), the result is the one-pass sum of
  exp (aₜ - μ) · wₜ over the whole row, μ being the maximum of the whole row. All of this takes place among real
  numbers; the extended reals only supply the starting value -∞ of the maximum, whose exponential is 0.
-/
import Idealize.ShloMosaic.PureOps.Ideal.Laws

noncomputable section

namespace Cert.Attn

open Idealize.ShloMosaic

/-- Position `c` of the first half of the key axis. -/
def lo (c : Fin 1024) : Fin 2048 := ⟨c.val, by have := c.isLt; omega⟩
/-- Position `c` of the second half of the key axis. -/
def hi (c : Fin 1024) : Fin 2048 := ⟨1024 + c.val, by have := c.isLt; omega⟩

/-- A sum over the key axis is the sum over its first half plus the sum over its second half. -/
theorem sum_halves {M : Type*} [AddCommMonoid M] (g : Fin 2048 → M) :
    ∑ t : Fin 2048, g t = ∑ c : Fin 1024, g (lo c) + ∑ c : Fin 1024, g (hi c) :=
  Fin.sum_univ_add (a := 1024) (b := 1024) g

/-- The maximum over the key axis (from -∞) is the larger of the two halves' maxima. -/
theorem fold_max_halves (f : Fin 2048 → EReal) :
    (Finset.univ : Finset (Fin 2048)).fold max ⊥ f
      = max ((Finset.univ : Finset (Fin 1024)).fold max ⊥ (fun c => f (lo c)))
            ((Finset.univ : Finset (Fin 1024)).fold max ⊥ (fun c => f (hi c))) := by
  apply le_antisymm
  · rw [Finset.fold_max_le]
    refine ⟨bot_le, fun t _ => ?_⟩
    by_cases ht : t.val < 1024
    · refine le_max_of_le_left ?_
      rw [Finset.le_fold_max]
      exact Or.inr ⟨⟨t.val, ht⟩, Finset.mem_univ _, le_of_eq (congrArg f (Fin.ext rfl))⟩
    · refine le_max_of_le_right ?_
      rw [Finset.le_fold_max]
      refine Or.inr ⟨⟨t.val - 1024, by have := t.isLt; omega⟩, Finset.mem_univ _, le_of_eq (congrArg f (Fin.ext ?_))⟩
      show t.val = 1024 + (t.val - 1024)
      omega
  · refine max_le ?_ ?_
    · rw [Finset.fold_max_le]
      exact ⟨bot_le, fun c _ => (Finset.le_fold_max _).2 (Or.inr ⟨lo c, Finset.mem_univ _, le_rfl⟩)⟩
    · rw [Finset.fold_max_le]
      exact ⟨bot_le, fun c _ => (Finset.le_fold_max _).2 (Or.inr ⟨hi c, Finset.mem_univ _, le_rfl⟩)⟩

/-- The maximum (from -∞) of 1024 real numbers is a real number. -/
theorem fold_max_coe (a : Fin 1024 → ℝ) :
    ∃ μ : ℝ, (Finset.univ : Finset (Fin 1024)).fold max ⊥ (fun c => (a c : EReal)) = (μ : EReal) := by
  refine ⟨_, (EReal.coe_toReal ?_ ?_).symm⟩
  · exact ne_of_lt ((Finset.fold_max_lt _).2 ⟨bot_lt_top, fun c _ => EReal.coe_lt_top _⟩)
  · exact ne_of_gt (lt_of_lt_of_le (EReal.bot_lt_coe (a 0))
      ((Finset.le_fold_max _).2 (Or.inr ⟨0, Finset.mem_univ _, le_rfl⟩)))

/-- A finite sum of reals, read among the extended reals, is the sum of the summands read there. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem exp_coe (r : ℝ) : Ideal.exp (r : EReal) = ((Real.exp r : ℝ) : EReal) := rfl
theorem exp_bot : Ideal.exp ⊥ = 0 := rfl

set_option maxRecDepth 1000000 in
/-- The f32 pattern of -∞ denotes the bottom of the extended reals. -/
theorem ofBits_ninf : Ideal.ofBits .f32 0xFF800000#32 = ⊥ := by
  simp [Ideal.ofBits, Ideal.ieee]

/-- THE LAW. Two passes with a running maximum and a rescaled accumulator give the one-pass sum. -/
theorem online_row (a w : Fin 2048 → ℝ) :
    Ideal.exp (max ⊥ ((Finset.univ : Finset (Fin 1024)).fold max ⊥ (fun c => (a (lo c) : EReal)))
        - max (max ⊥ ((Finset.univ : Finset (Fin 1024)).fold max ⊥ (fun c => (a (lo c) : EReal))))
            ((Finset.univ : Finset (Fin 1024)).fold max ⊥ (fun c => (a (hi c) : EReal))))
      * (Ideal.exp (⊥ - max ⊥ ((Finset.univ : Finset (Fin 1024)).fold max ⊥ (fun c => (a (lo c) : EReal)))) * 0
          + ∑ c : Fin 1024, Ideal.exp ((a (lo c) : EReal)
              - max ⊥ ((Finset.univ : Finset (Fin 1024)).fold max ⊥ (fun c => (a (lo c) : EReal)))) * (w (lo c) : EReal))
      + ∑ c : Fin 1024, Ideal.exp ((a (hi c) : EReal)
          - max (max ⊥ ((Finset.univ : Finset (Fin 1024)).fold max ⊥ (fun c => (a (lo c) : EReal))))
              ((Finset.univ : Finset (Fin 1024)).fold max ⊥ (fun c => (a (hi c) : EReal)))) * (w (hi c) : EReal)
    = ∑ t : Fin 2048, Ideal.exp ((a t : EReal)
          - (Finset.univ : Finset (Fin 2048)).fold max ⊥ (fun t => (a t : EReal))) * (w t : EReal) := by
  obtain ⟨μ0, h0⟩ := fold_max_coe (fun c => a (lo c))
  obtain ⟨μ1, h1⟩ := fold_max_coe (fun c => a (hi c))
  have hμ : max (μ0 : EReal) (μ1 : EReal) = ((max μ0 μ1 : ℝ) : EReal) :=
    (Monotone.map_max (f := fun r : ℝ => (r : EReal)) (fun _ _ h => EReal.coe_le_coe_iff.2 h)).symm
  have hM : (Finset.univ : Finset (Fin 2048)).fold max ⊥ (fun t => (a t : EReal)) = ((max μ0 μ1 : ℝ) : EReal) :=
    ((fold_max_halves _).trans (congrArg₂ max h0 h1)).trans hμ
  rw [hM, h0, h1, max_eq_right (bot_le : (⊥ : EReal) ≤ (μ0 : EReal)), hμ, EReal.bot_sub, exp_bot, zero_mul, zero_add]
  simp only [← EReal.coe_sub, exp_coe, ← EReal.coe_mul, ← coe_sum, ← EReal.coe_add]
  refine congrArg (fun r : ℝ => (r : EReal)) ?_
  rw [sum_halves (fun t => Real.exp (a t - max μ0 μ1) * w t), Finset.mul_sum]
  refine congrArg₂ (· + ·) (Finset.sum_congr rfl fun c _ => ?_) rfl
  show Real.exp (μ0 - max μ0 μ1) * (Real.exp (a (lo c) - μ0) * w (lo c)) = Real.exp (a (lo c) - max μ0 μ1) * w (lo c)
  rw [← mul_assoc, ← Real.exp_add, show μ0 - max μ0 μ1 + (a (lo c) - μ0) = a (lo c) - max μ0 μ1 by ring]

end Cert.Attn

end
-- ==== Proof.Spec.lean ====
/-
  The unnormalised attention numerator as a function of the three argument arrays, in two spellings.

  For a head (b, h), a query position s and a key position t the score is the dot product over the 128 features of
  q[b,h,s,·] and k[b,h,t,·]. The one-pass spelling subtracts the row's maximum score (taken from -∞) from every score,
  exponentiates, and sums the products with v[b,h,t,d] over the 2048 key positions. The two-pass spelling visits the
  key positions in two halves of 1024, keeping a running maximum and rescaling the partial sum when the maximum
  moves. For finite inputs the two are equal (`kerAt_eq_refAt`, by `online_row`).
-/
import Idealize.ShloMosaic.PureOps.Ideal.Laws
import Idealize.ShloMosaic.Lib.ValueIdx
import proofs.«117285_j38517266710795_1_alg».proof.Proof.OnlineMax

noncomputable section

namespace Cert.Attn

open Idealize.ShloMosaic Idealize.ShloMosaic.ValueIdx

/-- The shape of q, k, v and of the result: batch, head, position, feature. -/
abbrev A4 : Shape := ⟨4, ![2, 16, 2048, 128]⟩

local notation "ninf" => Ideal.ofBits FTy.f32 0xFF800000#32

/-- The score of query position `s` against key position `t` in head `(b, h)`. -/
def score (Q K : A4.Idx → EReal) (b : Fin 2) (h : Fin 16) (s t : Fin 2048) : EReal :=
  ∑ e : Fin 128, Q (ix4 b h s e) * K (ix4 b h t e)

/-- One pass: the row's maximum over all 2048 keys, then the weighted sum. -/
def refAt (Q K V : A4.Idx → EReal) (b : Fin 2) (h : Fin 16) (s : Fin 2048) (d : Fin 128) : EReal :=
  ∑ t : Fin 2048, Ideal.exp (score Q K b h s t
      - (Finset.univ : Finset (Fin 2048)).fold max ninf (fun t => score Q K b h s t)) * V (ix4 b h t d)

/-- The running maximum after the first half of the keys (the maximum starts at -∞). -/
def max0 (Q K : A4.Idx → EReal) (b : Fin 2) (h : Fin 16) (s : Fin 2048) : EReal :=
  max ninf ((Finset.univ : Finset (Fin 1024)).fold max ninf (fun c => score Q K b h s (lo c)))

/-- The running maximum after the second half. -/
def max1 (Q K : A4.Idx → EReal) (b : Fin 2) (h : Fin 16) (s : Fin 2048) : EReal :=
  max (max0 Q K b h s) ((Finset.univ : Finset (Fin 1024)).fold max ninf (fun c => score Q K b h s (hi c)))

/-- The accumulator after the first half: the zero accumulator rescaled, plus the first half's weighted sum. -/
def acc0 (Q K V : A4.Idx → EReal) (b : Fin 2) (h : Fin 16) (s : Fin 2048) (d : Fin 128) : EReal :=
  Ideal.exp (ninf - max0 Q K b h s) * Ideal.ofBits FTy.f32 0x00000000#32
    + ∑ c : Fin 1024, Ideal.exp (score Q K b h s (lo c) - max0 Q K b h s) * V (ix4 b h (lo c) d)

/-- Two passes: the first accumulator rescaled to the final maximum, plus the second half's weighted sum. -/
def kerAt (Q K V : A4.Idx → EReal) (b : Fin 2) (h : Fin 16) (s : Fin 2048) (d : Fin 128) : EReal :=
  Ideal.exp (max0 Q K b h s - max1 Q K b h s) * acc0 Q K V b h s d
    + ∑ c : Fin 1024, Ideal.exp (score Q K b h s (hi c) - max1 Q K b h s) * V (ix4 b h (hi c) d)

/-- The one-pass result array. -/
def Gref (Q K V : A4.Idx → EReal) : A4.Idx → EReal := fun i => refAt Q K V (i 0) (i 1) (i 2) (i 3)
/-- The two-pass result array. -/
def Gker (Q K V : A4.Idx → EReal) : A4.Idx → EReal := fun i => kerAt Q K V (i 0) (i 1) (i 2) (i 3)

/-- On finite inputs the two-pass value is the one-pass value: every score is a real number, so the running-maximum
    law applies to the row. -/
theorem kerAt_eq_refAt (Q K V : A4.Idx → EReal) (hQ : ∀ i, ∃ r : ℝ, Q i = r) (hK : ∀ i, ∃ r : ℝ, K i = r)
    (hV : ∀ i, ∃ r : ℝ, V i = r) (b : Fin 2) (h : Fin 16) (s : Fin 2048) (d : Fin 128) :
    kerAt Q K V b h s d = refAt Q K V b h s d := by
  choose q hq using hQ
  choose k hk using hK
  choose v hv using hV
  have hs : ∀ t, score Q K b h s t = ((∑ e : Fin 128, q (ix4 b h s e) * k (ix4 b h t e) : ℝ) : EReal) := fun t => by
    unfold score
    rw [coe_sum]
    exact Finset.sum_congr rfl fun e _ => by rw [hq, hk, EReal.coe_mul]
  unfold kerAt refAt acc0 max1 max0
  simp only [hs, hv, ofBits_ninf, Ideal.ofBits_zero_f32]
  exact online_row (fun t => ∑ e : Fin 128, q (ix4 b h s e) * k (ix4 b h t e)) (fun t => v (ix4 b h t d))

theorem Gker_eq_Gref (Q K V : A4.Idx → EReal) (hQ : ∀ i, ∃ r : ℝ, Q i = r) (hK : ∀ i, ∃ r : ℝ, K i = r)
    (hV : ∀ i, ∃ r : ℝ, V i = r) : Gker Q K V = Gref Q K V :=
  funext fun i => kerAt_eq_refAt Q K V hQ hK hV (i 0) (i 1) (i 2) (i 3)

end Cert.Attn

end
-- ==== Proof.TwoVisits.lean ====
/-
  Two visits of the body over the two halves of the key axis give the two-pass spelling.

  The query block (as each visit finds it) and the two key and value blocks are given as blocks whose entries are entries of the argument
  arrays: row r of the query block is query position s of head (b, h), row c of the first (second) key and value
  block is key position c (1024 + c). The first visit starts from -∞ and zero, the second from what the first left;
  the output block's entry (r, d) is then `kerAt` at (b, h, s, d).
-/
import proofs.«117285_j38517266710795_1_alg».proof.Proof.Payload
import proofs.«117285_j38517266710795_1_alg».proof.Proof.Spec

noncomputable section

namespace Cert.KernelIdeal.Pay

open Idealize.ShloMosaic Idealize.ShloMosaic.ValueIdx Cert.KernelIdeal Cert.KernelIdeal.Gen Cert.Attn

theorem two_visits_apply (Q K V : A4.Idx → EReal) (qb0 qb1 kb0 kb1 vb0 vb1 : Vec Ideal S1x1024x128 .f32)
    (b : Fin 2) (h : Fin 16) (s : Fin 2048) (r : Fin 1024)
    (hq0 : ∀ e : Fin 128, qb0 (ix3 (0 : Fin 1) r e) = Q (ix4 b h s e))
    (hq1 : ∀ e : Fin 128, qb1 (ix3 (0 : Fin 1) r e) = Q (ix4 b h s e))
    (hk0 : ∀ (c : Fin 1024) (e : Fin 128), kb0 (ix3 (0 : Fin 1) c e) = K (ix4 b h (lo c) e))
    (hk1 : ∀ (c : Fin 1024) (e : Fin 128), kb1 (ix3 (0 : Fin 1) c e) = K (ix4 b h (hi c) e))
    (hv0 : ∀ (c : Fin 1024) (d : Fin 128), vb0 (ix3 (0 : Fin 1) c d) = V (ix4 b h (lo c) d))
    (hv1 : ∀ (c : Fin 1024) (d : Fin 128), vb1 (ix3 (0 : Fin 1) c d) = V (ix4 b h (hi c) d)) (d : Fin 128) :
    k0_pay2 (F := Ideal) (k0_pay7 (F := Ideal) qb1 kb1 (k0_pay1 (F := Ideal) (k0_pay6 (F := Ideal) qb0 kb0 (k0_pay3 (F := Ideal)))) vb1
        (k0_pay7 (F := Ideal) qb0 kb0 (k0_pay3 (F := Ideal)) vb0 (k0_pay4 (F := Ideal)))) (ix3 (0 : Fin 1) r d)
      = kerAt Q K V b h s d := by
  have hS0 : ∀ c : Fin 1024, k0_pay5 (F := Ideal) qb0 kb0 (ix2 r c) = score Q K b h s (lo c) := fun c => by
    rw [pay5_apply]; unfold score
    exact Finset.sum_congr rfl fun e _ => by rw [hq0, hk0]
  have hS1 : ∀ c : Fin 1024, k0_pay5 (F := Ideal) qb1 kb1 (ix2 r c) = score Q K b h s (hi c) := fun c => by
    rw [pay5_apply]; unfold score
    exact Finset.sum_congr rfl fun e _ => by rw [hq1, hk1]
  have hM0 : k0_pay6 (F := Ideal) qb0 kb0 (k0_pay3 (F := Ideal)) (ix2 r (0 : Fin 1)) = max0 Q K b h s := by
    rw [pay6_apply, pay3_apply]; unfold max0
    simp only [hS0]
  have hA0 : k0_pay7 (F := Ideal) qb0 kb0 (k0_pay3 (F := Ideal)) vb0 (k0_pay4 (F := Ideal)) (ix2 r d) = acc0 Q K V b h s d := by
    rw [pay7_apply, hM0, pay3_apply, pay4_apply]; unfold acc0
    simp only [hS0, hv0]
  have hM1 : k0_pay6 (F := Ideal) qb1 kb1 (k0_pay1 (F := Ideal) (k0_pay6 (F := Ideal) qb0 kb0 (k0_pay3 (F := Ideal)))) (ix2 r (0 : Fin 1)) = max1 Q K b h s := by
    rw [pay6_apply, pay1_eq, hM0]; unfold max1
    simp only [hS1]
  rw [pay2_apply, pay7_apply, hM1, pay1_eq, hM0, hA0]
  unfold kerAt
  simp only [hS1, hv1]

end Cert.KernelIdeal.Pay

end
-- ==== Proof.KernelValue.lean ====
/-
  What the kernel's result array holds: the two-pass spelling of the arguments.

  The grid visits, for each head and each block of 1024 queries, the first half of the keys and then the second.
  The first visit leaves the running maxima and the accumulator of the first half; the second visit finishes them
  and writes the output block, which is then copied to rows (query block)·1024 … of that head in the [32, 2048, 128]
  array. The written blocks (the odd grid points) tile that array, and the program's last step views it as
  [2, 16, 2048, 128].
-/
import proofs.«117285_j38517266710795_1_alg».proof.Proof.Pieces
import proofs.«117285_j38517266710795_1_alg».proof.Proof.Blocks
import proofs.«117285_j38517266710795_1_alg».proof.Proof.TwoVisits
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Blocks Cert.KernelIdeal.Pay Cert.Attn

variable (m : (ℓ : Loc nD τ sig) → Buf (Elt Ideal) ℓ) (ρ : Dev nD → PrngReg)

/-- The three argument arrays as launched. -/
abbrev Qa (c : Dev nD) : A4.Idx → EReal := m ((c : Thread nD τ).loc main_arg0)
abbrev Ka (c : Dev nD) : A4.Idx → EReal := m ((c : Thread nD τ).loc main_arg1)
abbrev Va (c : Dev nD) : A4.Idx → EReal := m ((c : Thread nD τ).loc main_arg2)

theorem kerAt_congr (Q K V : A4.Idx → EReal) {b b' : Fin 2} {h h' : Fin 16} {s s' : Fin 2048} {d d' : Fin 128}
    (hb : b = b') (hh : h = h') (hs : s = s') (hd : d = d') : kerAt Q K V b h s d = kerAt Q K V b' h' s' d' := by
  subst hb hh hs hd; rfl

/-- What the region writes, as a [32, 2048, 128] array: head g = 16·b + h. -/
def G3 (c : Dev nD) : S32x2048x128.Idx → EReal := fun j =>
  kerAt (Qa m c) (Ka m c) (Va m c) (bOf ⟨(j 0).val, (j 0).isLt⟩) (hOf ⟨(j 0).val, (j 0).isLt⟩)
    ⟨(j 1).val, (j 1).isLt⟩ ⟨(j 2).val, (j 2).isLt⟩

/-- A block whose entry (0, r, d) is the two-pass value at the block's head and row is the block of `G3` the
    output window has at point `t`. -/
theorem block_eq (c : Dev nD) (t : Fin cfg0.N) (bf : Vec Ideal S1x1024x128 .f32)
    (hyp : ∀ (r : Fin 1024) (d : Fin 128), bf (ix3 (0 : Fin 1) r d)
        = kerAt (Qa m c) (Ka m c) (Va m c) (bOf (gOf t.val)) (hOf (gOf t.val)) (qrow t.val r) d) :
    (cfg0.win 3).cut (grid0.coords t) bf = ((cfg0.win 3).blk t).view.read (Elt Ideal) (G3 m c) := by
  obtain ⟨-, -, -, -, -, -, -, -, -, e0, e1, e2⟩ := idx_facts t
  have hN : t.val < 128 := lt_of_lt_of_eq t.isLt N_0
  refine funext fun (y : S1x1024x128.Idx) => ?_
  obtain ⟨u, r, d, rfl⟩ : ∃ (u : Fin 1) (r : Fin 1024) (d : Fin 128), y = ix3 u r d := ⟨y 0, y 1, y 2, eq_ix3 y⟩
  obtain rfl : u = 0 := Subsingleton.elim _ _
  show bf (ix3 (0 : Fin 1) r d) = G3 m c (((cfg0.win 3).blk t).view.emb (ix3 (0 : Fin 1) r d))
  rw [hyp]
  unfold G3
  refine kerAt_congr _ _ _ (Fin.ext ?_) (Fin.ext ?_) (Fin.ext ?_) (Fin.ext ?_)
  · show t.val / 4 % 32 / 16 = (win0_3.index t (0 : Fin 3) * 1 + 1 * 0) / 16
    rw [e0]; omega
  · show t.val / 4 % 32 % 16 = (win0_3.index t (0 : Fin 3) * 1 + 1 * 0) % 16
    rw [e0]; omega
  · show t.val / 2 % 2 * 1024 + r.val = win0_3.index t (1 : Fin 3) * 1024 + 1 * r.val
    rw [e1]; omega
  · show d.val = win0_3.index t (2 : Fin 3) * 128 + 1 * d.val
    rw [e2]; omega

/-- A first visit (an even grid point) leaves the step's running maxima and accumulator from -∞ and zero. -/
theorem outs_first (c : Dev nD) (t' : Fin cfg0.N) (hp0 : t'.val % 2 = 0) (hp1 : ¬t'.val % 2 = 1) :
    (outsAt0 m c t'.val t'.isLt).2.1
        = k0_pay1 (F := Ideal) (k0_pay6 (F := Ideal) (iblk m c 0 t') (iblk m c 1 t') (k0_pay3 (F := Ideal)))
      ∧ (outsAt0 m c t'.val t'.isLt).2.2
        = k0_pay7 (F := Ideal) (iblk m c 0 t') (iblk m c 1 t') (k0_pay3 (F := Ideal)) (iblk m c 2 t') (k0_pay4 (F := Ideal)) := by
  rw [outsAt0_A m c t' hp0 hp1]
  dsimp only
  refine ⟨?_, ?_⟩
  · exact Pieces.soutA0_eq (F := Ideal) c (grid0.coords t') (ms0_0 t') (hs0_0 t') (ms0_1 t') (hs0_1 t') (ms0_2 t') (hs0_2 t') (ms0_3 t') (hs0_3 t') scM0_0 (Memref.isWhole_whole _) scM0_1 (Memref.isWhole_whole _)
      ((hcond0_0 t').mpr hp0) (fun h => hp1 ((hcond0_1 t').mp h)) (iblk m c 0 t') (iblk m c 1 t') (iblk m c 2 t')
  · exact Pieces.soutA1_eq (F := Ideal) c (grid0.coords t') (ms0_0 t') (hs0_0 t') (ms0_1 t') (hs0_1 t') (ms0_2 t') (hs0_2 t') (ms0_3 t') (hs0_3 t') scM0_0 (Memref.isWhole_whole _) scM0_1 (Memref.isWhole_whole _)
      ((hcond0_0 t').mpr hp0) (fun h => hp1 ((hcond0_1 t').mp h)) (iblk m c 0 t') (iblk m c 1 t') (iblk m c 2 t')

/-- A second visit (an odd grid point) leaves in the output block the step's accumulator from what the visit before
    left. -/
theorem outs_second (c : Dev nD) (t : Fin cfg0.N) (h0 : ¬t.val % 2 = 0) (h1 : t.val % 2 = 1)
    (xs0 : Vec Ideal S1024x1 .f32) (xs1 : Vec Ideal S1024x128 .f32)
    (hx0 : (outsAt0 m c (t.val - 1) (Nat.lt_of_le_of_lt (Nat.sub_le _ _) t.isLt)).2.1 = xs0)
    (hx1 : (outsAt0 m c (t.val - 1) (Nat.lt_of_le_of_lt (Nat.sub_le _ _) t.isLt)).2.2 = xs1) :
    (outsAt0 m c t.val t.isLt).1
      = k0_pay2 (F := Ideal) (k0_pay7 (F := Ideal) (iblk m c 0 t) (iblk m c 1 t) xs0 (iblk m c 2 t) xs1) := by
  rw [outsAt0_B m c t h0 h1]
  dsimp only
  rw [hx0, hx1]
  exact Pieces.outB3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (fun h => h0 ((hcond0_0 t).mp h)) ((hcond0_1 t).mpr h1) (iblk m c 0 t) (iblk m c 1 t) (iblk m c 2 t) xs0 xs1

/-- What a flushing point (the second visit of a query block) writes back is its block of `G3`. -/
theorem flushed_eq (c : Dev nD) (t : Fin cfg0.N) (hf : (cfg0.win 3).flush t = true) :
    (dats m 0 c).flushed 3 t = ((cfg0.win 3).blk t).view.read (Elt Ideal) (G3 m c) := by
  have h1 : t.val % 2 = 1 := (flush0_3 t).mp hf
  have h0 : ¬t.val % 2 = 0 := by omega
  have hlt : t.val - 1 < cfg0.N := Nat.lt_of_le_of_lt (Nat.sub_le _ _) t.isLt
  obtain ⟨t', ht'⟩ : ∃ t' : Fin cfg0.N, t'.val = t.val - 1 := ⟨⟨t.val - 1, hlt⟩, rfl⟩
  have hp0 : t'.val % 2 = 0 := by omega
  have hp1 : ¬t'.val % 2 = 1 := by omega
  obtain ⟨hA0, hA1⟩ := outs_first m c t' hp0 hp1
  have hcast : ∀ (n : ℕ) (hn : n < cfg0.N), n = t'.val → outsAt0 m c n hn = outsAt0 m c t'.val t'.isLt := by
    intro n hn e; subst e; rfl
  have hB := outs_second m c t h0 h1 _ _
    ((congrArg (fun p => p.2.1) (hcast _ hlt ht'.symm)).trans hA0) ((congrArg (fun p => p.2.2) (hcast _ hlt ht'.symm)).trans hA1)
  show (cfg0.win 3).cut (grid0.coords t) ((dats m 0 c).after 3 t) = _
  rw [after0_3, hB]
  have hN : t.val < 128 := lt_of_lt_of_eq t.isLt N_0
  have hg : gOf t'.val = gOf t.val := Fin.ext (by show t'.val / 4 % 32 = t.val / 4 % 32; omega)
  refine block_eq m c t _ (fun r d => ?_)
  have hq : qrow t'.val r = qrow t.val r :=
    Fin.ext (by show t'.val / 2 % 2 * 1024 + r.val = t.val / 2 % 2 * 1024 + r.val; omega)
  have hk0 : ∀ k : Fin 1024, krow t'.val k = lo k := fun k =>
    Fin.ext (by show t'.val % 2 * 1024 + k.val = k.val; omega)
  have hk1 : ∀ k : Fin 1024, krow t.val k = hi k := fun k =>
    Fin.ext (by show t.val % 2 * 1024 + k.val = 1024 + k.val; omega)
  refine two_visits_apply (Qa m c) (Ka m c) (Va m c) (iblk m c 0 t') (iblk m c 0 t)
    (iblk m c 1 t') (iblk m c 1 t) (iblk m c 2 t') (iblk m c 2 t)
    (bOf (gOf t.val)) (hOf (gOf t.val)) (qrow t.val r) r ?_ ?_ ?_ ?_ ?_ ?_ d
  · intro e; rw [iblk0_apply, hg, hq]
  · intro e; rw [iblk0_apply]
  · intro k e; rw [iblk1_apply, hg, hk0]
  · intro k e; rw [iblk1_apply, hk1]
  · intro k e; rw [iblk2_apply, hg, hk0]
  · intro k e; rw [iblk2_apply, hk1]

/-- The second visits' blocks tile the [32, 2048, 128] array: position (g, s, ·) is in the block of the point
    4·g + 2·(s / 1024) + 1. So the array ends holding `G3`. -/
theorem final (c : Dev nD) : (dats m 0 c).arrAt 3 cfg0.N = G3 m c :=
  (dats m 0 c).arrAt_eq_of_cover 3 (G3 m c) (flushed_eq m c) fun i => by
    have h0 : (i 0 : Nat) < 32 := (i 0).isLt
    have h1 : (i 1 : Nat) < 2048 := (i 1).isLt
    have h2 : (i 2 : Nat) < 128 := (i 2).isLt
    have hN : cfg0.N = 128 := N_0
    have hlt : (i 0 : Nat) * 4 + (i 1 : Nat) / 1024 * 2 + 1 < cfg0.N := by rw [hN]; omega
    obtain ⟨-, -, -, -, -, -, -, -, -, e0, e1, e2⟩ := idx_facts ⟨(i 0 : Nat) * 4 + (i 1 : Nat) / 1024 * 2 + 1, hlt⟩
    refine ⟨⟨(i 0 : Nat) * 4 + (i 1 : Nat) / 1024 * 2 + 1, hlt⟩, (flush0_3 _).mpr (by
      show ((i 0 : Nat) * 4 + (i 1 : Nat) / 1024 * 2 + 1) % 2 = 1; omega), ?_⟩
    show i ∈ ((View.whole main_v3).slice (win0_3.rect ⟨(i 0 : Nat) * 4 + (i 1 : Nat) / 1024 * 2 + 1, hlt⟩)).set
    rw [View.set_slice_whole, Rect.mem_set_unit]
    intro a
    match a with
    | ⟨0, _⟩ =>
      show win0_3.index ⟨(i 0 : Nat) * 4 + (i 1 : Nat) / 1024 * 2 + 1, hlt⟩ (0 : Fin 3) * 1 ≤ (i 0 : Nat)
        ∧ (i 0 : Nat) < win0_3.index ⟨(i 0 : Nat) * 4 + (i 1 : Nat) / 1024 * 2 + 1, hlt⟩ (0 : Fin 3) * 1 + 1
      rw [e0]; show ((i 0 : Nat) * 4 + (i 1 : Nat) / 1024 * 2 + 1) / 4 * 1 ≤ (i 0 : Nat) ∧ (i 0 : Nat) < ((i 0 : Nat) * 4 + (i 1 : Nat) / 1024 * 2 + 1) / 4 * 1 + 1
      omega
    | ⟨1, _⟩ =>
      show win0_3.index ⟨(i 0 : Nat) * 4 + (i 1 : Nat) / 1024 * 2 + 1, hlt⟩ (1 : Fin 3) * 1024 ≤ (i 1 : Nat)
        ∧ (i 1 : Nat) < win0_3.index ⟨(i 0 : Nat) * 4 + (i 1 : Nat) / 1024 * 2 + 1, hlt⟩ (1 : Fin 3) * 1024 + 1024
      rw [e1]; show ((i 0 : Nat) * 4 + (i 1 : Nat) / 1024 * 2 + 1) / 2 % 2 * 1024 ≤ (i 1 : Nat) ∧ (i 1 : Nat) < ((i 0 : Nat) * 4 + (i 1 : Nat) / 1024 * 2 + 1) / 2 % 2 * 1024 + 1024
      omega
    | ⟨2, _⟩ =>
      show win0_3.index ⟨(i 0 : Nat) * 4 + (i 1 : Nat) / 1024 * 2 + 1, hlt⟩ (2 : Fin 3) * 128 ≤ (i 2 : Nat)
        ∧ (i 2 : Nat) < win0_3.index ⟨(i 0 : Nat) * 4 + (i 1 : Nat) / 1024 * 2 + 1, hlt⟩ (2 : Fin 3) * 128 + 128
      rw [e2]; omega

/-- The program's last step views the array the region wrote as [2, 16, 2048, 128]. -/
theorem tail_eq (c : Dev nD) :
    Pipeline.afterTail₀ cfgs (dats m) 0 (V0 m) [hostOps1] c main_v4
      = shapeCast S2x16x2048x128 (G3 m c) shapeCasts_S32x2048x128_S2x16x2048x128 := by
  unfold Pipeline.afterTail₀
  show StableHlo.after hostOps1 _ (Proc.devRef .tc main_v4) = _
  after_results
  exact congrArg (fun y => shapeCast S2x16x2048x128 y shapeCasts_S32x2048x128_S2x16x2048x128)
    ((Pipeline.withArrays_arr spec0 launch0.win.arr_inj c _ _ 3).trans (final m c))

/-- That view of `G3` is the two-pass result array. -/
theorem result_eq (c : Dev nD) :
    shapeCast S2x16x2048x128 (G3 m c) shapeCasts_S32x2048x128_S2x16x2048x128 = Gker (Qa m c) (Ka m c) (Va m c) := by
  funext i
  obtain ⟨b, h, s, d, rfl⟩ : ∃ (b : Fin 2) (h : Fin 16) (s : Fin 2048) (d : Fin 128), i = ix4 b h s d :=
    ⟨i 0, i 1, i 2, i 3, eq_ix4 i⟩
  rw [reshape_out_apply]
  have hb := b.isLt
  have hh := h.isLt
  exact kerAt_congr _ _ _ (Fin.ext (by show (b.val * 16 + h.val) / 16 = b.val; omega))
    (Fin.ext (by show (b.val * 16 + h.val) % 16 = h.val; omega)) rfl rfl

/-- The run, read: the result array at the two-pass spelling of the arguments, the arguments unchanged. -/
theorem run : θ_run defs (onTc (τ := τ) (main (F := Ideal))) ⟨m, fun _ => 0, ρ⟩ fun r => ∀ c : Dev nD,
      r.2.mem ((c : Thread nD τ).loc main_v4) = Gker (Qa m c) (Ka m c) (Va m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(((h c).2 main_v4 (Pipeline.mem_restRefs_of main_v4 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefIsSpec.lean ====
/-
  The reference computes the one-pass spelling.

  Read one operation at a time: the first `dot_general` is the score of (b, h, s) against every key position, the
  reduce is the maximum of those scores from -∞, the two broadcasts repeat that maximum along the key axis, the
  subtraction and exponential act entry by entry, and the last `dot_general` sums the products with the values over
  the key positions.
-/
import proofs.«117285_j38517266710795_1_alg».proof.Proof.Gen.ReferenceIdeal.Read
import proofs.«117285_j38517266710795_1_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Attn

theorem reduces_d3 : S2x16x2048x2048.Reduces [3] S2x16x2048 := by decide

/-- The reduce, at (b, h, s): the maximum from -∞ of the scores of that row over the 2048 key positions. -/
theorem val_v1_apply (x0 x1 : (⟨S2x16x2048x128, .f32⟩ : BufTy).Contents (Elt Ideal)) (b : Fin 2) (h : Fin 16) (s : Fin 2048) :
    val_main_v1 (F := Ideal) x0 x1 (ix3 b h s)
      = (Finset.univ : Finset (Fin 2048)).fold max (Ideal.ofBits FTy.f32 0xFF800000#32)
          (fun t => val_main_v0 (F := Ideal) x0 x1 (ix4 b h s t)) := by
  have key := Host.reduce_eq_fold_single (a := (3 : Fin 4)) (FloatOps.maximumf (F := Ideal) (φ := .f32))
    (val_main_v0 (F := Ideal) x0 x1) (val_main_cst (F := Ideal))
    reducesTo_S2x16x2048x2048_S2x16x2048_d3 reduces_d3 h_S_ (ix3 b h s)
  unfold val_main_v1
  refine key.trans ?_
  refine congrArg (fun f => (Finset.univ : Finset (Fin 2048)).fold max (Ideal.ofBits FTy.f32 0xFF800000#32) f) (funext fun t => ?_)
  exact congrArg (val_main_v0 (F := Ideal) x0 x1) (funext fun a => Fin.ext (by
    match a with
    | ⟨0, _⟩ => rfl
    | ⟨1, _⟩ => rfl
    | ⟨2, _⟩ => rfl
    | ⟨3, _⟩ => rfl))

/-- The first product at (b, h, s, t) is the score. -/
theorem val_v0_score (x0 x1 : (⟨S2x16x2048x128, .f32⟩ : BufTy).Contents (Elt Ideal)) (b : Fin 2) (h : Fin 16) (s t : Fin 2048) :
    val_main_v0 (F := Ideal) x0 x1 (ix4 b h s t) = score x0 x1 b h s t := by
  rw [val_main_v0_apply]
  unfold score
  refine Finset.sum_congr rfl fun e _ => ?_
  refine congrArg₂ (· * ·) (congrArg x0 (funext fun a => ?_)) (congrArg x1 (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The reference's result array is the one-pass spelling of the arguments. -/
theorem ref_eq_Gref (x0 x1 x2 : (⟨S2x16x2048x128, .f32⟩ : BufTy).Contents (Elt Ideal)) :
    val_main_v6 (F := Ideal) x0 x1 x2 = Gref x0 x1 x2 := by
  funext i
  obtain ⟨b, h, s, d, rfl⟩ : ∃ (b : Fin 2) (h : Fin 16) (s : Fin 2048) (d : Fin 128), i = ix4 b h s d :=
    ⟨i 0, i 1, i 2, i 3, eq_ix4 i⟩
  rw [val_main_v6_apply]
  show _ = refAt x0 x1 x2 b h s d
  unfold refAt
  refine Finset.sum_congr rfl fun t _ => ?_
  have e1 : lidx_main_v6 (ix4 b h s d) t = ix4 b h s t := funext fun a => by
    match a with
    | ⟨0, _⟩ => rfl
    | ⟨1, _⟩ => rfl
    | ⟨2, _⟩ => rfl
    | ⟨3, _⟩ => rfl
  have e2 : ridx_main_v6 (ix4 b h s d) t = ix4 b h t d := funext fun a => by
    match a with
    | ⟨0, _⟩ => rfl
    | ⟨1, _⟩ => rfl
    | ⟨2, _⟩ => rfl
    | ⟨3, _⟩ => rfl
  have e3 : idx_main_v2 (idx_main_v3 (ix4 b h s t)) = ix3 b h s := funext fun a => by
    match a with
    | ⟨0, _⟩ => rfl
    | ⟨1, _⟩ => rfl
    | ⟨2, _⟩ => rfl
  rw [e1, e2, val_main_v5_apply, val_main_v4_apply, val_main_v3_apply, val_main_v2_apply, e3, val_v1_apply]
  simp only [val_v0_score]
  rfl

end Cert.ReferenceIdeal.RefValue

end
-- ==== Proof.Finite.lean ====
/-
  What the precondition says: every entry of the three arguments is a real number.

  The precondition is the conjunction of three "all entries have absolute value below +∞" tests. An extended real
  whose absolute value max x (-x) is below +∞ is neither +∞ nor -∞, hence a real number.
-/
import proofs.«117285_j38517266710795_1_alg».proof.Pre_finite_inputs
import proofs.«117285_j38517266710795_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

set_option maxRecDepth 1000000 in
/-- An extended real whose absolute value is below the value of the +∞ pattern is a real number. -/
theorem real_of_abs_lt (x : EReal)
    (h : Ideal.cmp .olt (max x (-x)) (Ideal.ofBits FTy.f32 0x7F800000#32) = 1#1) : ∃ r : ℝ, x = r := by
  have htop : Ideal.ofBits FTy.f32 0x7F800000#32 = ⊤ := by simp [Ideal.ofBits, Ideal.ieee]
  rw [htop] at h
  induction x with
  | bot => exfalso; revert h; simp [Ideal.cmp]
  | coe r => exact ⟨r, rfl⟩
  | top => exfalso; revert h; simp [Ideal.cmp]

/-- One test: all entries of `x` have absolute value below +∞, so each is a real number. -/
theorem real_of_all (x : FVec Ideal S2x16x2048x128 .f32)
    (h : Host.reduce IntOp.andi
        (cmpf .olt (Host.absf x) (broadcastInDim S2x16x2048x128 ![] bcast_S_S2x16x2048x128 (constant (F := Ideal) S_ .f32 0x7F800000#32)))
        (constantI S_ 1 1#1) reducesTo_S2x16x2048x128_S_d0_1_2_3 h_S_ ValueIdx.ix0 = 1#1)
    (i : S2x16x2048x128.Idx) : ∃ r : ℝ, x i = r :=
  real_of_abs_lt (x i) (Host.reduce_andi_all _ _ _ _ _ h i)

/-- The precondition gives all three arguments real entries. -/
theorem real_of_pre (x0 x1 x2 : FVec Ideal S2x16x2048x128 .f32)
    (h : Cert.Pre_finite_inputs.fn (F := Ideal) x0 x1 x2 = (fun _ => 1#1)) :
    (∀ i, ∃ r : ℝ, x0 i = r) ∧ (∀ i, ∃ r : ℝ, x1 i = r) ∧ (∀ i, ∃ r : ℝ, x2 i = r) := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  exact ⟨real_of_all x0 h0, real_of_all x1 h1, real_of_all x2 h2⟩

end Cert.Finite

end
-- ==== Proof.lean ====
/-
  Unnormalised attention, computed with a running row maximum over two halves of the keys, against the one-pass
  reference: both are, at every (batch, head, query position, feature),
      ∑ₜ exp (score(s, t) - maxₜ' score(s, t')) · v[t, d],    score(s, t) = ∑ₑ q[s, e] · k[t, e].

  The kernel visits the 2048 key positions of a row in two blocks of 1024. After the first block it holds the block's
  row maximum μ₀ and the sum of exp (score - μ₀) · v over the block; after the second it holds μ = max μ₀ μ₁ and
  exp (μ₀ - μ) times the old sum plus the second block's sum of exp (score - μ) · v. On the extended reals the
  changes of float format are the identity and the matrix products are exact sums, so what remains is the identity
  exp (μ₀ - μ) · exp (a - μ₀) = exp (a - μ) and distributivity, among real numbers: the inputs are finite, hence
  every score and every maximum is a real number. The maximum of the whole row is the larger of the two halves'
  maxima, and the sum over the row splits into the sums over the halves.

  The three programs run and keep their arguments (the two kernels' frames; the reference's run); the idealisation
  rewrote nothing.
-/
import proofs.«117285_j38517266710795_1_alg».proof.Defs
import proofs.«117285_j38517266710795_1_alg».proof.Proof.Gen.Kernel
import proofs.«117285_j38517266710795_1_alg».proof.Proof.Gen.Kernel.Skeleton
import proofs.«117285_j38517266710795_1_alg».proof.Proof.Gen.Kernel.Launch
import proofs.«117285_j38517266710795_1_alg».proof.Proof.Gen.Kernel.Points
import proofs.«117285_j38517266710795_1_alg».proof.Proof.Gen.Kernel.Frame
import proofs.«117285_j38517266710795_1_alg».proof.Proof.Gen.KernelIdeal
import proofs.«117285_j38517266710795_1_alg».proof.Proof.Gen.KernelIdeal.Skeleton
import proofs.«117285_j38517266710795_1_alg».proof.Proof.Gen.KernelIdeal.Launch
import proofs.«117285_j38517266710795_1_alg».proof.Proof.Gen.KernelIdeal.Points
import proofs.«117285_j38517266710795_1_alg».proof.Proof.Gen.KernelIdeal.Frame
import proofs.«117285_j38517266710795_1_alg».proof.Proof.Gen.ReferenceIdeal
import proofs.«117285_j38517266710795_1_alg».proof.Proof.Gen.Pre_finite_inputs
import proofs.«117285_j38517266710795_1_alg».proof.Proof.Gen.ReferenceIdeal.Run
import proofs.«117285_j38517266710795_1_alg».proof.Proof.Gen.ReferenceIdeal.Read
import proofs.«117285_j38517266710795_1_alg».proof.Proof.KernelValue
import proofs.«117285_j38517266710795_1_alg».proof.Proof.RefIsSpec
import proofs.«117285_j38517266710795_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the two-pass spelling of the arguments, the reference's at the one-pass spelling
    of arguments that agree; the precondition makes every entry real, and there the two spellings are equal. -/
theorem algebraic : Cert.algebraic_KernelIdeal_ReferenceIdeal := by
  intro m ρ m' ρ' hpre hagree
  refine ⟨fun c => Cert.Attn.Gker (Cert.KernelIdeal.KValue.Qa m c) (Cert.KernelIdeal.KValue.Ka m c)
    (Cert.KernelIdeal.KValue.Va m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq_Gref, (hagree c).1, (hagree c).2.1,
    (hagree c).2.2]
  obtain ⟨hQ, hK, hV⟩ := Cert.Finite.real_of_pre _ _ _ (hpre c)
  exact (Cert.Attn.Gker_eq_Gref _ _ _ hQ hK hV).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
